-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512 : Shape := ⟨1, ![512]⟩
abbrev S1024x512 : Shape := ⟨2, ![1024, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  main_v18

def fn {F : FTy → Type} [FloatOps F] (main_arg0 : FVec F S131072x512 .f32) (main_arg1 : FVec F S512 .f32) (main_arg2 : FVec F S512 .f32) (main_arg3 : FVec F S1024x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_v13 main_v16
-- ==== Kernel.lean ====
abbrev S131072x512 : Shape := ⟨2, ![131072, 512]⟩
abbrev S512 : Shape := ⟨1, ![512]⟩
abbrev S1024x512 : Shape := ⟨2, ![1024, 512]⟩
abbrev S_ : Shape := ⟨0, ![]⟩
abbrev S1024 : Shape := ⟨1, ![1024]⟩
abbrev S1x1024 : Shape := ⟨2, ![1, 1024]⟩
abbrev S1x512 : Shape := ⟨2, ![1, 512]⟩
abbrev S131072x1024 : Shape := ⟨2, ![131072, 1024]⟩
abbrev S1x131072x1024 : Shape := ⟨3, ![1, 131072, 1024]⟩
abbrev S512x512 : Shape := ⟨2, ![512, 512]⟩
abbrev S512x1024 : Shape := ⟨2, ![512, 1024]⟩
abbrev S1x512x1024 : Shape := ⟨3, ![1, 512, 1024]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1024x512, .bf16⟩
  | .hbm, ⟨9, _⟩ => ⟨S1x512, .f32⟩
  | .hbm, ⟨10, _⟩ => ⟨S1x512, .f32⟩
  | .hbm, ⟨11, _⟩ => ⟨S131072x1024, .f32⟩
  | .hbm, ⟨12, _⟩ => ⟨S1x131072x1024, .f32⟩
  | .hbm, ⟨13, _⟩ => ⟨S131072x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S1024x512, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x512, .f32⟩
  | .local _ .vmem, ⟨11, _⟩ => ⟨S512x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S1024x512_S1024_d1 : S1024x512.ReducesTo [1] S1024
  h_S_ : 0 < S_.numel
  bcast_S1024_S1x1024_1 : S1024.BroadcastsInDim S1x1024 (![1] : Fin 1 → Fin S1x1024.rank)
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  inb_S1x512x1024_S1x512x1024_0_0_0 : ∀ a, (![0, 0, 0] : Fin 3 → Nat) a + S1x512x1024.size a ≤ S1x512x1024.size a
  h_S1x512x1024 : 0 < S1x512x1024.numel
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S131072x512.size a
  hwx0_0 : ∀ i : grid0.Coords, EltTy.bits .f32 = 32 ∨ (Rect.block (s := S131072x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S131072x1024.size a
  hwx0_5 : ∀ i : grid0.Coords, EltTy.bits .f32 = 32 ∨ (Rect.block (s := S131072x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S1x131072x1024.size a
  hwx0_6 : ∀ i : grid0.Coords, EltTy.bits .f32 = 32 ∨ (Rect.block (s := S1x131072x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S131072x512.size a
  hwx0_7 : ∀ i : grid0.Coords, EltTy.bits .f32 = 32 ∨ (Rect.block (s := S131072x512) S512x512.size (cc0_transform_7 i) (hinb0_7 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x512 : Shape := ⟨2, ![131072, 512]⟩
abbrev S512 : Shape := ⟨1, ![512]⟩
abbrev S1024x512 : Shape := ⟨2, ![1024, 512]⟩
abbrev S_ : Shape := ⟨0, ![]⟩
abbrev S131072 : Shape := ⟨1, ![131072]⟩
abbrev S131072x1 : Shape := ⟨2, ![131072, 1]⟩
abbrev S1x512 : Shape := ⟨2, ![1, 512]⟩
abbrev S1024 : Shape := ⟨1, ![1024]⟩
abbrev S1x1024 : Shape := ⟨2, ![1, 1024]⟩
abbrev S131072x1024 : Shape := ⟨2, ![131072, 1024]⟩
abbrev S512x1024 : Shape := ⟨2, ![512, 1024]⟩
abbrev S1x131072x1024 : Shape := ⟨3, ![1, 131072, 1024]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S1024x512, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S_, .f32⟩
  | .hbm, ⟨17, _⟩ => ⟨S131072x1, .f32⟩
  | .hbm, ⟨18, _⟩ => ⟨S131072x1, .f32⟩
  | .hbm, ⟨19, _⟩ => ⟨S131072x1, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072x512, .f32⟩
  | .hbm, ⟨26, _⟩ => ⟨S131072x512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S1x512, .f32⟩
  | .hbm, ⟨31, _⟩ => ⟨S131072x512, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S1024x512, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S131072x1024, .f32⟩
  | .hbm, ⟨42, _⟩ => ⟨S131072x1024, .f32⟩
  | .hbm, ⟨43, _⟩ => ⟨S131072x1024, .f32⟩
  | .hbm, ⟨44, _⟩ => ⟨S512x1024, .f32⟩
  | .hbm, ⟨45, _⟩ => ⟨S131072x1024, .f32⟩
  | .hbm, ⟨46, _⟩ => ⟨S_, .f32⟩
  | .hbm, ⟨47, _⟩ => ⟨S131072x1024, .f32⟩
  | .hbm, ⟨48, _⟩ => ⟨S131072x1024, .f32⟩
  | .hbm, ⟨49, _⟩ => ⟨S131072x1024, .f32⟩
  | .hbm, ⟨50, _⟩ => ⟨S_, .f32⟩
  | .hbm, ⟨51, _⟩ => ⟨S131072x1024, .f32⟩
  | .hbm, ⟨52, _⟩ => ⟨S131072x1024, .f32⟩
  | .hbm, ⟨53, _⟩ => ⟨S131072x1024, .f32⟩
  | .hbm, ⟨54, _⟩ => ⟨S_, .f32⟩
  | .hbm, ⟨55, _⟩ => ⟨S131072x1024, .f32⟩
  | .hbm, ⟨56, _⟩ => ⟨S131072x1024, .f32⟩
  | .hbm, ⟨57, _⟩ => ⟨S_, .f32⟩
  | .hbm, ⟨58, _⟩ => ⟨S131072, .f32⟩
  | .hbm, ⟨59, _⟩ => ⟨S_, .f32⟩
  | .hbm, ⟨60, _⟩ => ⟨S131072, .f32⟩
  | .hbm, ⟨61, _⟩ => ⟨S131072, .f32⟩
  | .hbm, ⟨62, _⟩ => ⟨S131072x1, .f32⟩
  | .hbm, ⟨63, _⟩ => ⟨S131072x1024, .f32⟩
  | .hbm, ⟨64, _⟩ => ⟨S131072x1024, .f32⟩
  | .hbm, ⟨65, _⟩ => ⟨S131072x1024, .f32⟩
  | .hbm, ⟨66, _⟩ => ⟨S_, .f32⟩
  | .hbm, ⟨67, _⟩ => ⟨S131072, .f32⟩
  | .hbm, ⟨68, _⟩ => ⟨S131072x1, .f32⟩
  | .hbm, ⟨69, _⟩ => ⟨S131072x1024, .f32⟩
  | .hbm, ⟨70, _⟩ => ⟨S131072x1024, .f32⟩
  | .hbm, ⟨71, _⟩ => ⟨S131072x512, .f32⟩
  | .hbm, ⟨72, _⟩ => ⟨S1x131072x1024, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  reducesTo_S1024x512_S1024_d1 : S1024x512.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  transposes_S1024x512_S512x1024_1_0 : S1024x512.Transposes [1, 0] S512x1024
  bcast_S_S131072x1024 : S_.BroadcastsInDim S131072x1024 (![] : Fin 0 → Fin S131072x1024.rank)
  reducesTo_S131072x1024_S131072_d1 : S131072x1024.ReducesTo [1] S131072
  bcast_S_S131072 : S_.BroadcastsInDim S131072 (![] : Fin 0 → Fin S131072.rank)
  bcast_S131072x1024_S1x131072x1024_1_2 : S131072x1024.BroadcastsInDim S1x131072x1024 (![1, 2] : Fin 2 → Fin S1x131072x1024.rank)
  dot_S131072x512_S512x1024_S131072x1024_1_0_0_1_n_n_wf : DotDims.WF S131072x512 S512x1024 S131072x1024 [1] [0] [0] [1] [] []
  dot_S131072x1024_S1024x512_S131072x512_1_0_0_1_n_n_wf : DotDims.WF S131072x1024 S1024x512 S131072x512 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf

class Facts : Prop extends Facts₀ where

variable [Facts]
-- ==== Proof.Rows.lean ====
/-
  The mathematics of one row, on the extended reals.

  A row `f` of 512 entries is normalized: its mean `(Σ f) / 512` is subtracted, the centred row is divided by
  `√((Σ centred²) / 512) + ε`, scaled by the weights `w` and shifted by the biases `b`.  The normalized row is compared
  with each of 1024 centres `cc j`: the squared distance is `|xn|² + |cc j|² − 2 · ⟨xn, cc j⟩`, clamped at 0, and the
  distance its square root.  The distances, scaled by −32, are the logits of a softmax shifted by its greatest logit;
  the softmax weights are the row's soft assignment, and the assignment's combination of the centres its
  reconstruction.  The six constants are kept as the binary32 words both programs spell; only the zero word and the
  word of −∞ are ever evaluated.
-/
import Idealize.ShloMosaic.PureOps.Ideal
import Idealize.ShloMosaic.PureOps.Ideal.Laws

noncomputable section

open scoped BigOperators

namespace Cert.Rows

open Idealize.ShloMosaic

/-- The row length 512, as the word both programs divide by. -/
def w512 : EReal := Ideal.ofBits .f32 0x44000000#32
/-- The ε added to the standard deviation. -/
def wEps : EReal := Ideal.ofBits .f32 0x3727C5AC#32
/-- The factor 2 of the cross term. -/
def wTwo : EReal := Ideal.ofBits .f32 0x40000000#32
/-- The scale −32 of the logits. -/
def wScale : EReal := Ideal.ofBits .f32 0xC2000000#32
/-- The zero word: the clamp of the squared distance, and the start of every sum. -/
def wZero : EReal := Ideal.ofBits .f32 0x00000000#32
/-- The word of −∞, from which a maximum starts. -/
def wNegInf : EReal := Ideal.ofBits .f32 0xFF800000#32

theorem wZero_eq : wZero = 0 := Ideal.ofBits_zero_f32

theorem wNegInf_eq : wNegInf = ⊥ := by
  unfold wNegInf
  simp [Ideal.ofBits, Ideal.ieee]

/-- A sum started from the zero word is the sum. -/
theorem wZero_add (x : EReal) : wZero + x = x := by rw [wZero_eq, zero_add]

/-- A maximum against the word of −∞ is the other operand. -/
theorem max_wNegInf (x : EReal) : max wNegInf x = x := by rw [wNegInf_eq]; exact max_bot_left x

section normalize

variable (f w b : Fin 512 → EReal)

/-- The mean of the row. -/
def mean : EReal := Ideal.div (∑ k : Fin 512, f k) w512

/-- The row with its mean subtracted. -/
def centred (k : Fin 512) : EReal := f k - mean f

/-- The standard deviation of the row plus ε: what the centred row is divided by. -/
def spread : EReal := Ideal.sqrt (Ideal.div (∑ k : Fin 512, centred f k * centred f k) w512) + wEps

/-- The normalized row: centred, divided by the spread, scaled and shifted. -/
def normed (k : Fin 512) : EReal := Ideal.div (centred f k) (spread f) * w k + b k

/-- The squared length of the normalized row. -/
def sqNorm : EReal := ∑ k : Fin 512, normed f w b k * normed f w b k

end normalize

/-- The squared length of centre `j`. -/
def centreSq (cc : Fin 1024 → Fin 512 → EReal) (j : Fin 1024) : EReal := ∑ k : Fin 512, cc j k * cc j k

/-- The distance from a row `g` of squared length `n2` to centre `j`, the centres' squared lengths given as `c2`. -/
def dist (g : Fin 512 → EReal) (n2 : EReal) (cc : Fin 1024 → Fin 512 → EReal) (c2 : Fin 1024 → EReal) (j : Fin 1024) : EReal :=
  Ideal.sqrt (max ((n2 + c2 j) - wTwo * ∑ k : Fin 512, g k * cc j k) wZero)

/-- The greatest entry of a row, from −∞. -/
def peak {n : ℕ} (g : Fin n → EReal) : EReal := (Finset.univ : Finset (Fin n)).fold max wNegInf g

/-- The softmax weight of entry `j` of the row `g`, shifted by the row's greatest entry. -/
def weight {n : ℕ} (g : Fin n → EReal) (j : Fin n) : EReal :=
  Ideal.div (Ideal.exp (g j - peak g)) (∑ k : Fin n, Ideal.exp (g k - peak g))

section row

variable (f w b : Fin 512 → EReal) (cc : Fin 1024 → Fin 512 → EReal) (c2 : Fin 1024 → EReal)

/-- The distances of the normalized row to the centres. -/
def rowDist (j : Fin 1024) : EReal := dist (normed f w b) (sqNorm f w b) cc c2 j

/-- The logits: the distances scaled by −32. -/
def rowLogit (j : Fin 1024) : EReal := wScale * rowDist f w b cc c2 j

/-- The soft assignment of the row to the centres. -/
def rowAssign (j : Fin 1024) : EReal := weight (rowLogit f w b cc c2) j

/-- The reconstruction of the row from the centres. -/
def rowRecon (d : Fin 512) : EReal := ∑ j : Fin 1024, rowAssign f w b cc c2 j * cc j d

end row

end Cert.Rows

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.Tile.lean ====
/-
  The kernel body's values on one block of 512 rows, read at an entry, at the ideal values.

  Each value the body stores is built from whole-tile operations: lane sums and lane maxima kept as `[512, 1]`
  columns and spread back over the lanes, `[1, n]` rows spread over the 512 rows, two matrix products into zero
  accumulators and pointwise arithmetic.  Read at row `p`, every one of them depends only on row `p` of the block of
  `x`, on the weight and bias rows, on the centres and on the row of the centres' squared lengths, and is the
  row-level expression of `Cert.Rows`: the distances `rowDist`, the soft assignment `rowAssign` (also under a leading
  unit axis) and the reconstruction `rowRecon`.  The body's terms are cut into named tiles — the mean column, the
  centred tile, the spread column, the normalized tile, the squared-distance tile, the shifted exponentials, the
  softmax — each read at an entry by one short lemma; that the body's payloads are these tiles is `rfl`.
-/
import proofs.«152731_j41540923687208_2_alg».proof.Proof.Gen.KernelIdeal.Skeleton
import proofs.«152731_j41540923687208_2_alg».proof.Proof.Rows
import proofs.«152731_j41540923687208_2_alg».proof.Proof.LibKeepdims
import proofs.«152731_j41540923687208_2_alg».proof.Proof.LibRowMax
import proofs.«152731_j41540923687208_2_alg».proof.Proof.LibMatmul2
import proofs.«152731_j41540923687208_2_alg».proof.Proof.LibUnitBlock
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Rows
open Cert.Lib.Keepdims

/-! ## Lane statistics kept as columns -/

/-- The lane sum of a `[512, 512]` tile kept as a column: at row `p` the sum of the row. -/
theorem sumCol_apply (T : FVec Ideal S512x512 .f32) (p : Fin 512) (u : Fin 1) :
    shapeCast S512x1 (multiReduction (F := Ideal) .add [1] S512 T 0x00000000#32 reduces_S512x512_S512 (.inl rfl) rfl)
        shapeCasts_S512_S512x1 (ix2 p u) = ∑ k : Fin 512, T (ix2 p k) :=
  (shapeCast_a_a1_apply _ shapeCasts_S512_S512x1 p u).trans (rowSum_apply T reduces_S512x512_S512 (.inl rfl) rfl p)

/-- The lane sum of a `[512, 1024]` tile kept as a column: at row `p` the sum of the row. -/
theorem sumColWide_apply (T : FVec Ideal S512x1024 .f32) (p : Fin 512) (u : Fin 1) :
    shapeCast S512x1 (multiReduction (F := Ideal) .add [1] S512 T 0x00000000#32 reduces_S512x1024_S512 (.inl rfl) rfl)
        shapeCasts_S512_S512x1 (ix2 p u) = ∑ k : Fin 1024, T (ix2 p k) :=
  (shapeCast_a_a1_apply _ shapeCasts_S512_S512x1 p u).trans (rowSum_apply T reduces_S512x1024_S512 (.inl rfl) rfl p)

/-- The lane maximum of a `[512, 1024]` tile kept as a column: at row `p` the greatest entry of the row. -/
theorem maxColWide_apply (T : FVec Ideal S512x1024 .f32) (p : Fin 512) (u : Fin 1) :
    shapeCast S512x1 (multiReduction (F := Ideal) .maximumf [1] S512 T 0xFF800000#32 reduces_S512x1024_S512 (.inl rfl) rfl)
        shapeCasts_S512_S512x1 (ix2 p u) = peak (fun k => T (ix2 p k)) :=
  (shapeCast_a_a1_apply _ shapeCasts_S512_S512x1 p u).trans
    (Cert.Lib.RowMax.rowMax_apply T reduces_S512x1024_S512 (.inl rfl) rfl p)

/-! ## The normalized tile -/

/-- The means of the rows, as a column. -/
def meanCol (v0 : FVec Ideal S512x512 .f32) : FVec Ideal S512x1 .f32 :=
  divf (shapeCast S512x1 (multiReduction (F := Ideal) .add [1] S512 v0 0x00000000#32 reduces_S512x512_S512 (.inl rfl) rfl)
      shapeCasts_S512_S512x1)
    (broadcast S512x1 (Scalar.ofBits (F := Ideal) .f32 0x44000000#32))

theorem meanCol_apply (v0 : FVec Ideal S512x512 .f32) (p : Fin 512) (u : Fin 1) :
    meanCol v0 (ix2 p u) = mean (fun k => v0 (ix2 p k)) := by
  unfold meanCol
  rw [divf_apply, sumCol_apply]
  rfl

/-- The tile with each row's mean subtracted. -/
def cenTile (v0 : FVec Ideal S512x512 .f32) : FVec Ideal S512x512 .f32 :=
  subf v0 (broadcastTo S512x512 (meanCol v0) broadcasts_S512x1_S512x512)

theorem cenTile_apply (v0 : FVec Ideal S512x512 .f32) (p k : Fin 512) :
    cenTile v0 (ix2 p k) = centred (fun k => v0 (ix2 p k)) k := by
  unfold cenTile
  rw [subf_apply, broadcastTo_a1_ab_apply, meanCol_apply]
  rfl

/-- The rows' standard deviations plus ε, as a column. -/
def spreadCol (v0 : FVec Ideal S512x512 .f32) : FVec Ideal S512x1 .f32 :=
  addf (sqrt (divf (shapeCast S512x1 (multiReduction (F := Ideal) .add [1] S512 (mulf (cenTile v0) (cenTile v0)) 0x00000000#32
        reduces_S512x512_S512 (.inl rfl) rfl) shapeCasts_S512_S512x1)
      (broadcast S512x1 (Scalar.ofBits (F := Ideal) .f32 0x44000000#32))))
    (broadcast S512x1 (Scalar.ofBits (F := Ideal) .f32 0x3727C5AC#32))

theorem spreadCol_apply (v0 : FVec Ideal S512x512 .f32) (p : Fin 512) (u : Fin 1) :
    spreadCol v0 (ix2 p u) = spread (fun k => v0 (ix2 p k)) := by
  unfold spreadCol
  show Ideal.sqrt (Ideal.div (shapeCast S512x1 (multiReduction (F := Ideal) .add [1] S512 (mulf (cenTile v0) (cenTile v0)) 0x00000000#32
        reduces_S512x512_S512 (.inl rfl) rfl) shapeCasts_S512_S512x1 (ix2 p u)) (Ideal.ofBits .f32 0x44000000#32))
      + Ideal.ofBits .f32 0x3727C5AC#32 = _
  rw [sumCol_apply]
  simp only [mulf_apply, cenTile_apply]
  rfl

/-- The normalized tile: centred, divided by the spread, scaled by the weight row and shifted by the bias row. -/
def normTile (v0 : FVec Ideal S512x512 .f32) (v17 v21 : FVec Ideal S1x512 .f32) : FVec Ideal S512x512 .f32 :=
  addf (mulf (divf (cenTile v0) (broadcastTo S512x512 (spreadCol v0) broadcasts_S512x1_S512x512))
      (broadcastTo S512x512 (shapeCast S1x512 v17 shapeCasts_S1x512_S1x512) broadcasts_S1x512_S512x512))
    (broadcastTo S512x512 (shapeCast S1x512 v21 shapeCasts_S1x512_S1x512) broadcasts_S1x512_S512x512)

theorem normTile_apply (v0 : FVec Ideal S512x512 .f32) (v17 v21 : FVec Ideal S1x512 .f32) (p k : Fin 512) :
    normTile v0 v17 v21 (ix2 p k)
      = normed (fun k => v0 (ix2 p k)) (fun k => v17 (ix2 (0 : Fin 1) k)) (fun k => v21 (ix2 (0 : Fin 1) k)) k := by
  unfold normTile
  rw [addf_apply, mulf_apply, divf_apply, cenTile_apply, broadcastTo_a1_ab_apply, spreadCol_apply,
    LibUnitBlock.row_spread_apply, LibUnitBlock.row_spread_apply, shapeCast_self, shapeCast_self]
  rfl

/-! ## The squared distances -/

/-- `|T p|² + c2 j − 2 · ⟨T p, C j⟩` as a tile: the squared lengths of the rows as a column spread over the lanes, the
    centres' squared lengths as a row spread over the rows, the products by the matrix unit into a zero accumulator. -/
def d2Tile (T : FVec Ideal S512x512 .f32) (C : FVec Ideal S1024x512 .bf16) (v27 : FVec Ideal S1x1024 .f32) :
    FVec Ideal S512x1024 .f32 :=
  subf (addf (broadcastTo S512x1024 (shapeCast S512x1 (multiReduction (F := Ideal) .add [1] S512 (mulf T T) 0x00000000#32
          reduces_S512x512_S512 (.inl rfl) rfl) shapeCasts_S512_S512x1) broadcasts_S512x1_S512x1024)
      (broadcastTo S512x1024 (shapeCast S1x1024 v27 shapeCasts_S1x1024_S1x1024) broadcasts_S1x1024_S512x1024))
    (mulf (broadcast S512x1024 (Scalar.ofBits (F := Ideal) .f32 0x40000000#32))
      (matmul dot_S512x512_S1024x512_S512x1024_1_1_0_0_n_n none (truncf .bf16 T bitsLt_bf16_f32) C
        (constant S512x1024 .f32 0x00000000#32)))

theorem d2Tile_apply (T : FVec Ideal S512x512 .f32) (C : FVec Ideal S1024x512 .bf16) (v27 : FVec Ideal S1x1024 .f32)
    (p : Fin 512) (j : Fin 1024) :
    d2Tile T C v27 (ix2 p j)
      = (∑ k : Fin 512, T (ix2 p k) * T (ix2 p k) + v27 (ix2 (0 : Fin 1) j)) - wTwo * ∑ k : Fin 512, T (ix2 p k) * C (ix2 j k) := by
  have hm : matmul dot_S512x512_S1024x512_S512x1024_1_1_0_0_n_n none (truncf .bf16 T bitsLt_bf16_f32) C
      (constant S512x1024 .f32 0x00000000#32) (ix2 p j) = ∑ k : Fin 512, T (ix2 p k) * C (ix2 j k) :=
    LibMatmul2.matmul_nt_apply _ none (truncf .bf16 T bitsLt_bf16_f32) C p j
  unfold d2Tile
  rw [subf_apply, addf_apply, mulf_apply, hm, broadcastTo_a1_ab_apply, sumCol_apply, LibUnitBlock.row_spread_apply,
    shapeCast_self]
  simp only [mulf_apply]
  rfl

/-! ## The softmax of a tile's rows -/

/-- The tile shifted by its row maxima and exponentiated. -/
def expTile (L : FVec Ideal S512x1024 .f32) : FVec Ideal S512x1024 .f32 :=
  exp (subf L (broadcastTo S512x1024 (shapeCast S512x1 (multiReduction (F := Ideal) .maximumf [1] S512 L 0xFF800000#32
    reduces_S512x1024_S512 (.inl rfl) rfl) shapeCasts_S512_S512x1) broadcasts_S512x1_S512x1024))

theorem expTile_apply (L : FVec Ideal S512x1024 .f32) (p : Fin 512) (j : Fin 1024) :
    expTile L (ix2 p j) = Ideal.exp (L (ix2 p j) - peak (fun k => L (ix2 p k))) := by
  unfold expTile
  show Ideal.exp (L (ix2 p j) - broadcastTo S512x1024 (shapeCast S512x1 (multiReduction (F := Ideal) .maximumf [1] S512 L 0xFF800000#32
    reduces_S512x1024_S512 (.inl rfl) rfl) shapeCasts_S512_S512x1) broadcasts_S512x1_S512x1024 (ix2 p j)) = _
  rw [broadcastTo_a1_ab_apply, maxColWide_apply]

/-- The shifted exponentials divided by their row sums. -/
def softTile (L : FVec Ideal S512x1024 .f32) : FVec Ideal S512x1024 .f32 :=
  divf (expTile L) (broadcastTo S512x1024 (shapeCast S512x1 (multiReduction (F := Ideal) .add [1] S512 (expTile L) 0x00000000#32
    reduces_S512x1024_S512 (.inl rfl) rfl) shapeCasts_S512_S512x1) broadcasts_S512x1_S512x1024)

theorem softTile_apply (L : FVec Ideal S512x1024 .f32) (p : Fin 512) (j : Fin 1024) :
    softTile L (ix2 p j) = weight (fun k => L (ix2 p k)) j := by
  unfold softTile
  rw [divf_apply, broadcastTo_a1_ab_apply, sumColWide_apply]
  simp only [expTile_apply]
  rfl

/-! ## The body's payloads are these tiles -/

variable (x0 : Vec Ideal S512x512 .f32) (x1 x2 : Vec Ideal S1x512 .f32) (x3 : Vec Ideal S1024x512 .bf16)
  (x4 : Vec Ideal S1x1024 .f32)

theorem pay5_eq : k0_pay5 (F := Ideal) x3 = x3 := shapeCast_self _ _

theorem pay6_eq : k0_pay6 (F := Ideal) x0 x1 x2 x3 x4 = d2Tile (normTile x0 x1 x2) (k0_pay5 x3) x4 := rfl

theorem pay2_eq (D : FVec Ideal S512x1024 .f32) (z : Ideal .f32) :
    k0_pay2 (F := Ideal) D z = softTile (mulf (broadcast S512x1024 (Scalar.ofBits (F := Ideal) .f32 0xC2000000#32)) (k0_pay1 D z)) := rfl

/-- The zero the squared distances are clamped at, as the body spells it. -/
abbrev zeroW : Ideal .f32 := Scalar.ofBits (F := Ideal) .f32 0x00000000#32

/-- The squared-distance tile of the block, read at `(p, j)`. -/
theorem pay6_apply (p : Fin 512) (j : Fin 1024) :
    k0_pay6 (F := Ideal) x0 x1 x2 x3 x4 (ix2 p j)
      = (sqNorm (fun k => x0 (ix2 p k)) (fun k => x1 (ix2 (0 : Fin 1) k)) (fun k => x2 (ix2 (0 : Fin 1) k)) + x4 (ix2 (0 : Fin 1) j))
        - wTwo * ∑ k : Fin 512, normed (fun k => x0 (ix2 p k)) (fun k => x1 (ix2 (0 : Fin 1) k)) (fun k => x2 (ix2 (0 : Fin 1) k)) k
            * x3 (ix2 j k) := by
  rw [pay6_eq, d2Tile_apply, pay5_eq]
  simp only [normTile_apply]
  rfl

/-- The distances the body stores, read at `(p, j)`: row `p`'s distance to centre `j`. -/
theorem dist_apply (p : Fin 512) (j : Fin 1024) :
    k0_pay1 (F := Ideal) (k0_pay6 x0 x1 x2 x3 x4) zeroW (ix2 p j)
      = rowDist (fun k => x0 (ix2 p k)) (fun k => x1 (ix2 (0 : Fin 1) k)) (fun k => x2 (ix2 (0 : Fin 1) k))
          (fun j k => x3 (ix2 j k)) (fun j => x4 (ix2 (0 : Fin 1) j)) j := by
  show Ideal.sqrt (max (k0_pay6 (F := Ideal) x0 x1 x2 x3 x4 (ix2 p j)) (Ideal.ofBits .f32 0x00000000#32)) = _
  rw [pay6_apply]
  rfl

/-- The soft assignment the body computes, read at `(p, j)`. -/
theorem assign_apply (p : Fin 512) (j : Fin 1024) :
    k0_pay2 (F := Ideal) (k0_pay6 x0 x1 x2 x3 x4) zeroW (ix2 p j)
      = rowAssign (fun k => x0 (ix2 p k)) (fun k => x1 (ix2 (0 : Fin 1) k)) (fun k => x2 (ix2 (0 : Fin 1) k))
          (fun j k => x3 (ix2 j k)) (fun j => x4 (ix2 (0 : Fin 1) j)) j := by
  rw [pay2_eq, softTile_apply]
  simp only [mulf_apply, broadcast_apply, dist_apply]
  rfl

/-- The soft assignment under its leading unit axis, as the body stores it. -/
theorem assign3_apply (u : Fin 1) (p : Fin 512) (j : Fin 1024) :
    k0_pay4 (F := Ideal) (k0_pay6 x0 x1 x2 x3 x4) zeroW (ix3 u p j)
      = rowAssign (fun k => x0 (ix2 p k)) (fun k => x1 (ix2 (0 : Fin 1) k)) (fun k => x2 (ix2 (0 : Fin 1) k))
          (fun j k => x3 (ix2 j k)) (fun j => x4 (ix2 (0 : Fin 1) j)) j :=
  (LibUnitBlock.add_lead_apply _ shapeCasts_S512x1024_S1x512x1024 u p j).trans (assign_apply x0 x1 x2 x3 x4 p j)

/-- The reconstruction the body stores, read at `(p, d)`. -/
theorem recon_apply (p d : Fin 512) :
    k0_pay3 (F := Ideal) (k0_pay5 x3) (k0_pay6 x0 x1 x2 x3 x4) zeroW (ix2 p d)
      = rowRecon (fun k => x0 (ix2 p k)) (fun k => x1 (ix2 (0 : Fin 1) k)) (fun k => x2 (ix2 (0 : Fin 1) k))
          (fun j k => x3 (ix2 j k)) (fun j => x4 (ix2 (0 : Fin 1) j)) d := by
  have hm : k0_pay3 (F := Ideal) (k0_pay5 x3) (k0_pay6 x0 x1 x2 x3 x4) zeroW (ix2 p d)
      = ∑ j : Fin 1024, k0_pay2 (F := Ideal) (k0_pay6 x0 x1 x2 x3 x4) zeroW (ix2 p j) * k0_pay5 (F := Ideal) x3 (ix2 j d) :=
    LibMatmul2.matmul_nn_apply _ none (truncf .bf16 (k0_pay2 (F := Ideal) (k0_pay6 x0 x1 x2 x3 x4) zeroW) bitsLt_bf16_f32)
      (k0_pay5 (F := Ideal) x3) p d
  rw [hm, pay5_eq]
  simp only [assign_apply]
  rfl

end Cert.KernelIdeal.Tile

end
-- ==== Proof.Arrays.lean ====
/-
  The three results as functions of the whole argument arrays, entry by entry.

  Row `r` of the array `X` of 131072 rows is normalized with the weight and bias vectors `W`, `B` and compared with the
  1024 rows of the centre array `CC`, whose squared lengths are the row sums of `CC · CC`.  The distance array holds at
  `(r, j)` the distance of row `r` to centre `j`; the assignment array, under a leading unit axis, holds at `(0, r, j)`
  the softmax weight of centre `j` for row `r`; the reconstruction array holds at `(r, d)` coordinate `d` of the
  assignment's combination of the centres.  Every entry depends on one row of `X` only.
-/
import proofs.«152731_j41540923687208_2_alg».proof.Proof.Rows
import Idealize.ShloMosaic.Lib.ValueIdx

noncomputable section

open scoped BigOperators

namespace Cert.Arrays

open Idealize.ShloMosaic Idealize.ShloMosaic.ValueIdx Cert.Rows

variable (X : (⟨2, ![131072, 512]⟩ : Shape).Idx → EReal) (W B : (⟨1, ![512]⟩ : Shape).Idx → EReal)
  (CC : (⟨2, ![1024, 512]⟩ : Shape).Idx → EReal)

/-- The distance of row `r` to centre `j`. -/
def distAt (r : Fin 131072) (j : Fin 1024) : EReal :=
  rowDist (fun k => X (ix2 r k)) (fun k => W (ix1 k)) (fun k => B (ix1 k)) (fun j k => CC (ix2 j k))
    (centreSq (fun j k => CC (ix2 j k))) j

/-- The softmax weight of centre `j` for row `r`. -/
def assignAt (r : Fin 131072) (j : Fin 1024) : EReal :=
  rowAssign (fun k => X (ix2 r k)) (fun k => W (ix1 k)) (fun k => B (ix1 k)) (fun j k => CC (ix2 j k))
    (centreSq (fun j k => CC (ix2 j k))) j

/-- Coordinate `d` of the reconstruction of row `r`. -/
def reconAt (r : Fin 131072) (d : Fin 512) : EReal :=
  rowRecon (fun k => X (ix2 r k)) (fun k => W (ix1 k)) (fun k => B (ix1 k)) (fun j k => CC (ix2 j k))
    (centreSq (fun j k => CC (ix2 j k))) d

/-- The distance array. -/
def distArr : (⟨2, ![131072, 1024]⟩ : Shape).Idx → EReal := fun i => distAt X W B CC (i 0) (i 1)

/-- The assignment array, under its leading unit axis. -/
def assignArr : (⟨3, ![1, 131072, 1024]⟩ : Shape).Idx → EReal := fun i => assignAt X W B CC (i 1) (i 2)

/-- The reconstruction array. -/
def reconArr : (⟨2, ![131072, 512]⟩ : Shape).Idx → EReal := fun i => reconAt X W B CC (i 0) (i 1)

end Cert.Arrays

end
-- ==== Proof.Whole.lean ====
/-
  From blocks to arrays: what the idealized kernel's three result arrays hold after the run.

  Grid point `t` works on rows `512·t … 512·t + 511`: its block of `x` is those rows, its weight and bias rows are the
  vectors `W`, `B` viewed as `[1, 512]`, its centres are the whole centre array (rounded to bf16, which is the identity
  on the extended reals) and its row of squared lengths is the row sums of `CC · CC` that the host operations before
  the launch compute.  So what point `t` writes back to each result is block `t` of the whole-array functions of
  `Cert.Arrays`, the 256 blocks tile each result, and each result array ends holding its function of the arguments.
-/
import proofs.«152731_j41540923687208_2_alg».proof.Proof.Gen.KernelIdeal.Value
import proofs.«152731_j41540923687208_2_alg».proof.Proof.Tile
import proofs.«152731_j41540923687208_2_alg».proof.Proof.Arrays
import Idealize.ShloMosaic.Lib.StableHlo.Run
import Idealize.ShloMosaic.Lib.Pipeline.Value
import Idealize.ShloMosaic.PureOps.Ideal.Laws

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Rows Cert.Arrays
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 256 points: the blocks of `x` and of the three results move with the point along
    the row axis, every other window stays at block 0. -/
theorem idx_all : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = 0 ∧ win0_6.index t (1 : Fin 3) = t.val ∧ win0_6.index t (2 : Fin 3) = 0
    ∧ win0_7.index t (0 : Fin 2) = t.val ∧ win0_7.index t (1 : Fin 2) = 0 :=
  (by decide +kernel : ∀ t : Fin grid0.N, _)

theorem point_lt (t : Fin cfg0.N) : t.val < 256 := lt_of_lt_of_eq t.isLt N_0

/-! ## The arrays the region finds, where host operations wrote them -/

/-- The weight row is the weight vector viewed as `[1, 512]`. -/
theorem V_v4 (c : Dev nD) : (V m c main_v4 : S1x512.Idx → EReal)
    = shapeCast S1x512 (m ((c : Thread nD τ).loc main_arg1)) shapeCasts_S512_S1x512 := by
  dsimp only [Gen.V, Gen.hostOps0]; after_results <;> rfl

/-- The bias row is the bias vector viewed as `[1, 512]`. -/
theorem V_v5 (c : Dev nD) : (V m c main_v5 : S1x512.Idx → EReal)
    = shapeCast S1x512 (m ((c : Thread nD τ).loc main_arg2)) shapeCasts_S512_S1x512 := by
  dsimp only [Gen.V, Gen.hostOps0]; after_results <;> rfl

/-- The centres the kernel reads are the centre array rounded to bf16. -/
theorem V_v3 (c : Dev nD) : (V m c main_v3 : S1024x512.Idx → EReal)
    = (truncf (F := Ideal) .bf16 (m ((c : Thread nD τ).loc main_arg3) : FVec Ideal S1024x512 .f32) bitsLt_bf16_f32 : S1024x512.Idx → EReal) := by
  dsimp only [Gen.V, Gen.hostOps0]; after_results <;> rfl

/-- The row of squared lengths is the host's row sums of `CC · CC`, viewed as `[1, 1024]`. -/
theorem V_v2 (c : Dev nD) : (V m c main_v2 : S1x1024.Idx → EReal) = broadcastInDim S1x1024 ![1] bcast_S1024_S1x1024_1
    (Host.reduceAdd (F := Ideal) (mulf (m ((c : Thread nD τ).loc main_arg3)) (m ((c : Thread nD τ).loc main_arg3)))
      (constant (F := Ideal) S_ .f32 0x00000000#32) reducesTo_S1024x512_S1024_d1 h_S_) := by
  dsimp only [Gen.V, Gen.hostOps0]; after_results <;> rfl

/-- The host's row sums of `A · A` viewed as a `[1, 1024]` row, read at `(0, j)`: the squared length of row `j` of `A`. -/
theorem centreRow_apply (A : S1024x512.Idx → EReal) (j : Fin 1024) :
    broadcastInDim S1x1024 ![1] bcast_S1024_S1x1024_1
      (Host.reduceAdd (F := Ideal) (mulf A A) (constant (F := Ideal) S_ .f32 0x00000000#32) reducesTo_S1024x512_S1024_d1 h_S_)
      (ix2 (0 : Fin 1) j) = centreSq (fun j k => A (ix2 j k)) j := by
  refine (broadcastInDim_apply _ bcast_S1024_S1x1024_1 _ (ix2 (0 : Fin 1) j) (ix1 j) (fun a => match a with
    | ⟨0, _⟩ => by show j.val = if (1024 : Nat) = 1 then 0 else j.val; rw [if_neg (by decide)])).trans ?_
  simp only [Host.reduceAdd, Ideal.hostReduceAdd_def]
  rw [Ideal.hostReduceAdd_single reducesTo_S1024x512_S1024_d1 (by decide)]
  refine (wZero_add _).trans (Finset.sum_congr rfl fun k _ => ?_)
  exact congrArg (fun i => A i * A i) (funext fun a => Fin.ext (by match a with | ⟨0, _⟩ => rfl | ⟨1, _⟩ => rfl))

/-! ## Each window's block at a point, as rows of the arguments -/

/-- Row `p` of the block of `x` at point `t` is row `512·t + p` of `x`. -/
theorem blk0 (c : Dev nD) (t : Fin cfg0.N) (p : Fin 512) (r : Fin 131072) (hr : r.val = t.val * 512 + p.val) :
    (fun k : Fin 512 => (iblk m c 0 t : Vec Ideal S512x512 .f32) (ix2 p k))
      = fun k => (m ((c : Thread nD τ).loc main_arg0) : S131072x512.Idx → EReal) (ix2 r k) := by
  funext k
  show V m c main_arg0 (((cfg0.win 0).blk t).view.emb (ix2 p k)) = _
  rw [V_main_arg0]
  refine congrArg (m ((c : Thread nD τ).loc main_arg0) : S131072x512.Idx → EReal) (funext fun a => Fin.ext ?_)
  obtain ⟨e0, e1, -⟩ := idx_all t
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- The weight row's block is the weight vector. -/
theorem blk1 (c : Dev nD) (t : Fin cfg0.N) :
    (fun k : Fin 512 => (iblk m c 1 t : Vec Ideal S1x512 .f32) (ix2 (0 : Fin 1) k))
      = fun k => (m ((c : Thread nD τ).loc main_arg1) : S512.Idx → EReal) (ix1 k) := by
  funext k
  show V m c main_v4 (((cfg0.win 1).blk t).view.emb (ix2 (0 : Fin 1) k)) = _
  obtain ⟨-, -, e0, e1, -⟩ := idx_all t
  have he : ((cfg0.win 1).blk t).view.emb (ix2 (0 : Fin 1) k) = ix2 (0 : Fin 1) k := funext fun a => Fin.ext (by
    match a with
    | ⟨0, _⟩ => show win0_1.index t (0 : Fin 2) * 1 + 1 * 0 = 0; rw [e0]
    | ⟨1, _⟩ => show win0_1.index t (1 : Fin 2) * 512 + 1 * k.val = k.val; rw [e1]; omega)
  rw [he, V_v4]
  exact Cert.Lib.Keepdims.shapeCast_a_1a_apply _ shapeCasts_S512_S1x512 k

/-- The bias row's block is the bias vector. -/
theorem blk2 (c : Dev nD) (t : Fin cfg0.N) :
    (fun k : Fin 512 => (iblk m c 2 t : Vec Ideal S1x512 .f32) (ix2 (0 : Fin 1) k))
      = fun k => (m ((c : Thread nD τ).loc main_arg2) : S512.Idx → EReal) (ix1 k) := by
  funext k
  show V m c main_v5 (((cfg0.win 2).blk t).view.emb (ix2 (0 : Fin 1) k)) = _
  obtain ⟨-, -, -, -, e0, e1, -⟩ := idx_all t
  have he : ((cfg0.win 2).blk t).view.emb (ix2 (0 : Fin 1) k) = ix2 (0 : Fin 1) k := funext fun a => Fin.ext (by
    match a with
    | ⟨0, _⟩ => show win0_2.index t (0 : Fin 2) * 1 + 1 * 0 = 0; rw [e0]
    | ⟨1, _⟩ => show win0_2.index t (1 : Fin 2) * 512 + 1 * k.val = k.val; rw [e1]; omega)
  rw [he, V_v5]
  exact Cert.Lib.Keepdims.shapeCast_a_1a_apply _ shapeCasts_S512_S1x512 k

/-- The centres' block is the whole centre array. -/
theorem blk3 (c : Dev nD) (t : Fin cfg0.N) :
    (fun (j : Fin 1024) (k : Fin 512) => (iblk m c 3 t : Vec Ideal S1024x512 .bf16) (ix2 j k))
      = fun j k => (m ((c : Thread nD τ).loc main_arg3) : S1024x512.Idx → EReal) (ix2 j k) := by
  funext j k
  show V m c main_v3 (((cfg0.win 3).blk t).view.emb (ix2 j k)) = _
  obtain ⟨-, -, -, -, -, -, e0, e1, -⟩ := idx_all t
  have he : ((cfg0.win 3).blk t).view.emb (ix2 j k) = ix2 j k := funext fun a => Fin.ext (by
    match a with
    | ⟨0, _⟩ => show win0_3.index t (0 : Fin 2) * 1024 + 1 * j.val = j.val; rw [e0]; omega
    | ⟨1, _⟩ => show win0_3.index t (1 : Fin 2) * 512 + 1 * k.val = k.val; rw [e1]; omega)
  rw [he, V_v3]
  rfl

/-- The block of the row of squared lengths is the centres' squared lengths. -/
theorem blk4 (c : Dev nD) (t : Fin cfg0.N) :
    (fun j : Fin 1024 => (iblk m c 4 t : Vec Ideal S1x1024 .f32) (ix2 (0 : Fin 1) j))
      = centreSq (fun j k => (m ((c : Thread nD τ).loc main_arg3) : S1024x512.Idx → EReal) (ix2 j k)) := by
  funext j
  show V m c main_v2 (((cfg0.win 4).blk t).view.emb (ix2 (0 : Fin 1) j)) = _
  obtain ⟨-, -, -, -, -, -, -, -, e0, e1, -⟩ := idx_all t
  have he : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [e0]
    | ⟨1, _⟩ => show win0_4.index t (1 : Fin 2) * 1024 + 1 * j.val = j.val; rw [e1]; omega)
  rw [he, V_v2]
  exact centreRow_apply _ j

/-! ## What a point computes, as entries of the whole-array functions -/

/-- The distance array as the arguments give it. -/
abbrev distOut (c : Dev nD) : Buf (Elt Ideal) ((c : Thread nD τ).loc main_v6_0) :=
  distArr (m ((c : Thread nD τ).loc main_arg0)) (m ((c : Thread nD τ).loc main_arg1)) (m ((c : Thread nD τ).loc main_arg2))
    (m ((c : Thread nD τ).loc main_arg3))

/-- The assignment array as the arguments give it. -/
abbrev assignOut (c : Dev nD) : Buf (Elt Ideal) ((c : Thread nD τ).loc main_v6_1) :=
  assignArr (m ((c : Thread nD τ).loc main_arg0)) (m ((c : Thread nD τ).loc main_arg1)) (m ((c : Thread nD τ).loc main_arg2))
    (m ((c : Thread nD τ).loc main_arg3))

/-- The reconstruction array as the arguments give it. -/
abbrev reconOut (c : Dev nD) : Buf (Elt Ideal) ((c : Thread nD τ).loc main_v6_2) :=
  reconArr (m ((c : Thread nD τ).loc main_arg0)) (m ((c : Thread nD τ).loc main_arg1)) (m ((c : Thread nD τ).loc main_arg2))
    (m ((c : Thread nD τ).loc main_arg3))

section point

variable (c : Dev nD) (t : Fin cfg0.N) (p : Fin 512) (r : Fin 131072)

theorem point_dist (hr : r.val = t.val * 512 + p.val) (j : Fin 1024) :
    k0_pay1 (F := Ideal) (k0_pay6 (iblk m c 0 t) (iblk m c 1 t) (iblk m c 2 t) (iblk m c 3 t) (iblk m c 4 t)) Tile.zeroW (ix2 p j)
      = distAt (m ((c : Thread nD τ).loc main_arg0)) (m ((c : Thread nD τ).loc main_arg1)) (m ((c : Thread nD τ).loc main_arg2))
          (m ((c : Thread nD τ).loc main_arg3)) r j := by
  refine (Tile.dist_apply (iblk m c 0 t) (iblk m c 1 t) (iblk m c 2 t) (iblk m c 3 t) (iblk m c 4 t) p j).trans ?_
  rw [blk0 m c t p r hr, blk1 m c t, blk2 m c t, blk3 m c t, blk4 m c t]
  rfl

theorem point_assign (hr : r.val = t.val * 512 + p.val) (u : Fin 1) (j : Fin 1024) :
    k0_pay4 (F := Ideal) (k0_pay6 (iblk m c 0 t) (iblk m c 1 t) (iblk m c 2 t) (iblk m c 3 t) (iblk m c 4 t)) Tile.zeroW (ix3 u p j)
      = assignAt (m ((c : Thread nD τ).loc main_arg0)) (m ((c : Thread nD τ).loc main_arg1)) (m ((c : Thread nD τ).loc main_arg2))
          (m ((c : Thread nD τ).loc main_arg3)) r j := by
  refine (Tile.assign3_apply (iblk m c 0 t) (iblk m c 1 t) (iblk m c 2 t) (iblk m c 3 t) (iblk m c 4 t) u p j).trans ?_
  rw [blk0 m c t p r hr, blk1 m c t, blk2 m c t, blk3 m c t, blk4 m c t]
  rfl

theorem point_recon (hr : r.val = t.val * 512 + p.val) (d : Fin 512) :
    k0_pay3 (F := Ideal) (k0_pay5 (iblk m c 3 t)) (k0_pay6 (iblk m c 0 t) (iblk m c 1 t) (iblk m c 2 t) (iblk m c 3 t) (iblk m c 4 t))
        Tile.zeroW (ix2 p d)
      = reconAt (m ((c : Thread nD τ).loc main_arg0)) (m ((c : Thread nD τ).loc main_arg1)) (m ((c : Thread nD τ).loc main_arg2))
          (m ((c : Thread nD τ).loc main_arg3)) r d := by
  refine (Tile.recon_apply (iblk m c 0 t) (iblk m c 1 t) (iblk m c 2 t) (iblk m c 3 t) (iblk m c 4 t) p d).trans ?_
  rw [blk0 m c t p r hr, blk1 m c t, blk2 m c t, blk3 m c t, blk4 m c t]
  rfl

end point

/-! ## What each point writes back is a block of the whole-array function -/

/-- The global row that local row `p` of point `t`'s block is. -/
def rowOf (t : Fin cfg0.N) (p : Fin 512) : Fin 131072 := ⟨t.val * 512 + p.val, by have := point_lt t; have := p.isLt; omega⟩

theorem flushed5_eq (c : Dev nD) (t : Fin cfg0.N) :
    (dats m 0 c).flushed 5 t = ((cfg0.win 5).blk t).view.read (Elt Ideal) (distOut m c) := by
  rw [Value.flushed5]
  unfold out0_5
  rw [View.canon_unit_zero hz2]
  simp only [View.ld_unit_zero (S := S512x512) hz2, View.ld_unit_zero (S := S1x512) hz2, View.ld_unit_zero (S := S1024x512) hz2,
    View.ld_unit_zero (S := S1x1024) hz2]
  funext y
  obtain ⟨p, j, rfl⟩ : ∃ (p : Fin 512) (j : Fin 1024), y = ix2 p j := ⟨y 0, y 1, eq_ix2 y⟩
  show k0_pay1 (F := Ideal) (k0_pay6 (iblk m c 0 t) (iblk m c 1 t) (iblk m c 2 t) (iblk m c 3 t) (iblk m c 4 t)) Tile.zeroW (ix2 p j)
    = distOut m c (((cfg0.win 5).blk t).view.emb (ix2 p j))
  obtain ⟨-, -, -, -, -, -, -, -, -, -, e0, e1, -⟩ := idx_all t
  have he : ((cfg0.win 5).blk t).view.emb (ix2 p j) = ix2 (rowOf t p) j := funext fun a => Fin.ext (by
    match a with
    | ⟨0, _⟩ => show win0_5.index t (0 : Fin 2) * 512 + 1 * p.val = t.val * 512 + p.val; rw [e0]; omega
    | ⟨1, _⟩ => show win0_5.index t (1 : Fin 2) * 1024 + 1 * j.val = j.val; rw [e1]; omega)
  rw [he]
  exact point_dist m c t p (rowOf t p) rfl j

theorem flushed6_eq (c : Dev nD) (t : Fin cfg0.N) :
    (dats m 0 c).flushed 6 t = ((cfg0.win 6).blk t).view.read (Elt Ideal) (assignOut m c) := by
  rw [Value.flushed6]
  unfold out0_6
  rw [View.canon_unit_zero hz3]
  simp only [View.ld_unit_zero (S := S512x512) hz2, View.ld_unit_zero (S := S1x512) hz2, View.ld_unit_zero (S := S1024x512) hz2,
    View.ld_unit_zero (S := S1x1024) hz2]
  funext y
  obtain ⟨u, p, j, rfl⟩ : ∃ (u : Fin 1) (p : Fin 512) (j : Fin 1024), y = ix3 u p j := ⟨y 0, y 1, y 2, eq_ix3 y⟩
  show k0_pay4 (F := Ideal) (k0_pay6 (iblk m c 0 t) (iblk m c 1 t) (iblk m c 2 t) (iblk m c 3 t) (iblk m c 4 t)) Tile.zeroW (ix3 u p j)
    = assignOut m c (((cfg0.win 6).blk t).view.emb (ix3 u p j))
  obtain ⟨-, -, -, -, -, -, -, -, -, -, -, -, e0, e1, e2, -⟩ := idx_all t
  have he : ((cfg0.win 6).blk t).view.emb (ix3 u p j) = ix3 (0 : Fin 1) (rowOf t p) j := funext fun a => Fin.ext (by
    have hu : u.val = 0 := by omega
    match a with
    | ⟨0, _⟩ => show win0_6.index t (0 : Fin 3) * 1 + 1 * u.val = 0; rw [e0, hu]
    | ⟨1, _⟩ => show win0_6.index t (1 : Fin 3) * 512 + 1 * p.val = t.val * 512 + p.val; rw [e1]; omega
    | ⟨2, _⟩ => show win0_6.index t (2 : Fin 3) * 1024 + 1 * j.val = j.val; rw [e2]; omega)
  rw [he]
  exact point_assign m c t p (rowOf t p) rfl u j

theorem flushed7_eq (c : Dev nD) (t : Fin cfg0.N) :
    (dats m 0 c).flushed 7 t = ((cfg0.win 7).blk t).view.read (Elt Ideal) (reconOut m c) := by
  rw [Value.flushed7]
  unfold out0_7
  rw [View.canon_unit_zero hz2]
  simp only [View.ld_unit_zero (S := S512x512) hz2, View.ld_unit_zero (S := S1x512) hz2, View.ld_unit_zero (S := S1024x512) hz2,
    View.ld_unit_zero (S := S1x1024) hz2]
  funext y
  obtain ⟨p, d, rfl⟩ : ∃ (p : Fin 512) (d : Fin 512), y = ix2 p d := ⟨y 0, y 1, eq_ix2 y⟩
  show k0_pay3 (F := Ideal) (k0_pay5 (iblk m c 3 t)) (k0_pay6 (iblk m c 0 t) (iblk m c 1 t) (iblk m c 2 t) (iblk m c 3 t) (iblk m c 4 t))
      Tile.zeroW (ix2 p d) = reconOut m c (((cfg0.win 7).blk t).view.emb (ix2 p d))
  obtain ⟨-, -, -, -, -, -, -, -, -, -, -, -, -, -, -, e0, e1⟩ := idx_all t
  have he : ((cfg0.win 7).blk t).view.emb (ix2 p d) = ix2 (rowOf t p) d := funext fun a => Fin.ext (by
    match a with
    | ⟨0, _⟩ => show win0_7.index t (0 : Fin 2) * 512 + 1 * p.val = t.val * 512 + p.val; rw [e0]; omega
    | ⟨1, _⟩ => show win0_7.index t (1 : Fin 2) * 512 + 1 * d.val = d.val; rw [e1]; omega)
  rw [he]
  exact point_recon m c t p (rowOf t p) rfl d

/-! ## The blocks tile each result -/

/-- The point whose block holds global row `r`. -/
def pointOf (r : ℕ) (hr : r < 131072) : Fin cfg0.N := ⟨r / 512, by rw [show cfg0.N = 256 from N_0]; omega⟩

theorem mem_blk5 (t : Fin cfg0.N) (i : S131072x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v6_0).slice (win0_5.rect t)).set ↔ _
  rw [View.set_slice_whole, Rect.mem_set_unit]
  exact Iff.rfl

theorem mem_blk6 (t : Fin cfg0.N) (i : S1x131072x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v6_1).slice (win0_6.rect t)).set ↔ _
  rw [View.set_slice_whole, Rect.mem_set_unit]
  exact Iff.rfl

theorem mem_blk7 (t : Fin cfg0.N) (i : S131072x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v6_2).slice (win0_7.rect t)).set ↔ _
  rw [View.set_slice_whole, Rect.mem_set_unit]
  exact Iff.rfl

theorem cover5 (i : S131072x1024.Idx) : ∃ t : Fin cfg0.N, (cfg0.win 5).flush t = true ∧ i ∈ ((cfg0.win 5).blk t).view.set := by
  have hi0 : (i 0).val < 131072 := (i 0).isLt
  have hi1 : (i 1).val < 1024 := (i 1).isLt
  obtain ⟨t, ht⟩ : ∃ t : Fin cfg0.N, t.val = (i 0).val / 512 := ⟨pointOf (i 0).val hi0, rfl⟩
  obtain ⟨-, -, -, -, -, -, -, -, -, -, e0, e1, -⟩ := idx_all t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

theorem cover6 (i : S1x131072x1024.Idx) : ∃ t : Fin cfg0.N, (cfg0.win 6).flush t = true ∧ i ∈ ((cfg0.win 6).blk t).view.set := by
  have hi0 : (i 0).val < 1 := (i 0).isLt
  have hi1 : (i 1).val < 131072 := (i 1).isLt
  have hi2 : (i 2).val < 1024 := (i 2).isLt
  obtain ⟨t, ht⟩ : ∃ t : Fin cfg0.N, t.val = (i 1).val / 512 := ⟨pointOf (i 1).val hi1, rfl⟩
  obtain ⟨-, -, -, -, -, -, -, -, -, -, -, -, e0, e1, e2, -⟩ := idx_all t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e0]; omega
  | ⟨1, _⟩ => show win0_6.index t (1 : Fin 3) * 512 ≤ (i 1).val ∧ (i 1).val < win0_6.index t (1 : Fin 3) * 512 + 512; rw [e1, ht]; omega
  | ⟨2, _⟩ => show win0_6.index t (2 : Fin 3) * 1024 ≤ (i 2).val ∧ (i 2).val < win0_6.index t (2 : Fin 3) * 1024 + 1024; rw [e2]; omega

theorem cover7 (i : S131072x512.Idx) : ∃ t : Fin cfg0.N, (cfg0.win 7).flush t = true ∧ i ∈ ((cfg0.win 7).blk t).view.set := by
  have hi0 : (i 0).val < 131072 := (i 0).isLt
  have hi1 : (i 1).val < 512 := (i 1).isLt
  obtain ⟨t, ht⟩ : ∃ t : Fin cfg0.N, t.val = (i 0).val / 512 := ⟨pointOf (i 0).val hi0, rfl⟩
  obtain ⟨-, -, -, -, -, -, -, -, -, -, -, -, -, -, -, e0, e1⟩ := idx_all t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 512 ≤ (i 1).val ∧ (i 1).val < win0_7.index t (1 : Fin 2) * 512 + 512; rw [e1]; omega

/-! ## The arrays after the run -/

theorem final5 (c : Dev nD) : (dats m 0 c).arrAt 5 cfg0.N = distOut m c :=
  (dats m 0 c).arrAt_eq_of_cover 5 (distOut m c) (fun t _ => flushed5_eq m c t) cover5

theorem final6 (c : Dev nD) : (dats m 0 c).arrAt 6 cfg0.N = assignOut m c :=
  (dats m 0 c).arrAt_eq_of_cover 6 (assignOut m c) (fun t _ => flushed6_eq m c t) cover6

theorem final7 (c : Dev nD) : (dats m 0 c).arrAt 7 cfg0.N = reconOut m c :=
  (dats m 0 c).arrAt_eq_of_cover 7 (reconOut m c) (fun t _ => flushed7_eq m c t) cover7

/-- The idealized kernel's run: every weakly fair execution terminates with the three results at their functions of the
    arguments, the arguments unchanged. -/
theorem run : θ_run defs (onTc (τ := τ) (main (F := Ideal))) ⟨m, fun _ => 0, ρ⟩ fun r => ∀ c : Dev nD,
      r.2.mem ((c : Thread nD τ).loc main_v6_0) = distOut m c
      ∧ r.2.mem ((c : Thread nD τ).loc main_v6_1) = assignOut m c
      ∧ r.2.mem ((c : Thread nD τ).loc main_v6_2) = reconOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.Whole

end
-- ==== Proof.RefWhole.lean ====
/-
  The reference, one operation at a time, is the whole-array functions of `Cert.Arrays`.

  Every stage of the reference program is read at an entry written by its coordinates: the row mean, the centred row
  (computed twice by the program, once for the variance and once for the quotient), the standard deviation plus ε, the
  normalized row, its squared length, the centres' squared lengths, the distances, the logits, their row maximum (taken
  from −∞ and once more against −∞, which changes nothing), the shifted exponentials, the softmax weights, their
  combination of the centres, and the weights under a leading unit axis.  Each host sum starts from the zero word,
  which adds nothing.  The index functions of the layout operations are first identified with the coordinates.
-/
import proofs.«152731_j41540923687208_2_alg».proof.Proof.Gen.ReferenceIdeal.Read
import proofs.«152731_j41540923687208_2_alg».proof.Proof.Arrays
import proofs.«152731_j41540923687208_2_alg».proof.Proof.LibRowMax
import Idealize.ShloMosaic.Lib.ValueIdx

noncomputable section

open scoped BigOperators

namespace Cert.ReferenceIdeal.Whole

open Cert.ReferenceIdeal Cert.ReferenceIdeal.Gen Cert.ReferenceIdeal.Read Idealize.ShloMosaic Idealize.ShloMosaic.ValueIdx Cert.Rows Cert.Arrays

/-! ## The layout operations' index functions at coordinates -/

section idx

variable (r : Fin 131072) (u : Fin 1) (k d : Fin 512) (j : Fin 1024)

theorem i1 : idx_main_v1 (ix2 r u) = ix1 r := funext fun a => Fin.ext (by match a with | ⟨0, _⟩ => rfl)
theorem i8 : idx_main_v8 (ix2 r u) = ix1 r := funext fun a => Fin.ext (by match a with | ⟨0, _⟩ => rfl)
theorem i26 : idx_main_v26 (ix2 r u) = ix1 r := funext fun a => Fin.ext (by match a with | ⟨0, _⟩ => rfl)
theorem i46 : idx_main_v46 (ix2 r u) = ix1 r := funext fun a => Fin.ext (by match a with | ⟨0, _⟩ => rfl)
theorem i51 : idx_main_v51 (ix2 r u) = ix1 r := funext fun a => Fin.ext (by match a with | ⟨0, _⟩ => rfl)
theorem i0 : idx_main_v0 (ix1 r) k = ix2 r k := funext fun a => Fin.ext (by match a with | ⟨0, _⟩ => rfl | ⟨1, _⟩ => rfl)
theorem i7 : idx_main_v7 (ix1 r) k = ix2 r k := funext fun a => Fin.ext (by match a with | ⟨0, _⟩ => rfl | ⟨1, _⟩ => rfl)
theorem i25 : idx_main_v25 (ix1 r) k = ix2 r k := funext fun a => Fin.ext (by match a with | ⟨0, _⟩ => rfl | ⟨1, _⟩ => rfl)
theorem i50 : idx_main_v50 (ix1 r) j = ix2 r j := funext fun a => Fin.ext (by match a with | ⟨0, _⟩ => rfl | ⟨1, _⟩ => rfl)
theorem i28 : idx_main_v28 (ix1 j) k = ix2 j k := funext fun a => Fin.ext (by match a with | ⟨0, _⟩ => rfl | ⟨1, _⟩ => rfl)
theorem i4 : idx_main_v4 (ix2 r k) = ix2 r (0 : Fin 1) := funext fun a => Fin.ext (by match a with | ⟨0, _⟩ => rfl | ⟨1, _⟩ => rfl)
theorem i12 : idx_main_v12 (ix2 r k) = ix2 r (0 : Fin 1) := funext fun a => Fin.ext (by match a with | ⟨0, _⟩ => rfl | ⟨1, _⟩ => rfl)
theorem i16 : idx_main_v16 (ix2 r k) = ix2 r (0 : Fin 1) := funext fun a => Fin.ext (by match a with | ⟨0, _⟩ => rfl | ⟨1, _⟩ => rfl)
theorem i30 : idx_main_v30 (ix2 r j) = ix2 r (0 : Fin 1) := funext fun a => Fin.ext (by match a with | ⟨0, _⟩ => rfl | ⟨1, _⟩ => rfl)
theorem i47 : idx_main_v47 (ix2 r j) = ix2 r (0 : Fin 1) := funext fun a => Fin.ext (by match a with | ⟨0, _⟩ => rfl | ⟨1, _⟩ => rfl)
theorem i52 : idx_main_v52 (ix2 r j) = ix2 r (0 : Fin 1) := funext fun a => Fin.ext (by match a with | ⟨0, _⟩ => rfl | ⟨1, _⟩ => rfl)
theorem i19 : idx_main_v19 (ix2 r k) = ix2 (0 : Fin 1) k := funext fun a => Fin.ext (by match a with | ⟨0, _⟩ => rfl | ⟨1, _⟩ => rfl)
theorem i22 : idx_main_v22 (ix2 r k) = ix2 (0 : Fin 1) k := funext fun a => Fin.ext (by match a with | ⟨0, _⟩ => rfl | ⟨1, _⟩ => rfl)
theorem i31 : idx_main_v31 (ix2 r j) = ix2 (0 : Fin 1) j := funext fun a => Fin.ext (by match a with | ⟨0, _⟩ => rfl | ⟨1, _⟩ => rfl)
theorem i18 : idx_main_v18 (ix2 u k) = ix1 k := funext fun a => Fin.ext (by match a with | ⟨0, _⟩ => rfl)
theorem i21 : idx_main_v21 (ix2 u k) = ix1 k := funext fun a => Fin.ext (by match a with | ⟨0, _⟩ => rfl)
theorem i29 : idx_main_v29 (ix2 u j) = ix1 j := funext fun a => Fin.ext (by match a with | ⟨0, _⟩ => rfl)
theorem i33 : idx_main_v33 (ix2 k j) = ix2 j k := funext fun a => Fin.ext (by match a with | ⟨0, _⟩ => rfl | ⟨1, _⟩ => rfl)
theorem li34 : lidx_main_v34 (ix2 r j) k = ix2 r k := funext fun a => Fin.ext (by match a with | ⟨0, _⟩ => rfl | ⟨1, _⟩ => rfl)
theorem ri34 : ridx_main_v34 (ix2 r j) k = ix2 k j := funext fun a => Fin.ext (by match a with | ⟨0, _⟩ => rfl | ⟨1, _⟩ => rfl)
theorem li54 : lidx_main_v54 (ix2 r d) j = ix2 r j := funext fun a => Fin.ext (by match a with | ⟨0, _⟩ => rfl | ⟨1, _⟩ => rfl)
theorem ri54 : ridx_main_v54 (ix2 r d) j = ix2 j d := funext fun a => Fin.ext (by match a with | ⟨0, _⟩ => rfl | ⟨1, _⟩ => rfl)
theorem i55 : idx_main_v55 (ix3 u r j) = ix2 r j := funext fun a => Fin.ext (by match a with | ⟨0, _⟩ => rfl | ⟨1, _⟩ => rfl)

end idx

/-- A host sum's start, the zero word, adds nothing. -/
theorem zadd (x : EReal) : FloatOps.ofBits (F := Ideal) .f32 0x00000000#32 + x = x := wZero_add x

variable (x0 : (⟨S131072x512, .f32⟩ : BufTy).Contents (Elt Ideal)) (x1 x2 : (⟨S512, .f32⟩ : BufTy).Contents (Elt Ideal))
  (x3 : (⟨S1024x512, .f32⟩ : BufTy).Contents (Elt Ideal))

/-! ## The normalized rows -/

theorem sum0 (r : Fin 131072) : val_main_v0 (F := Ideal) x0 (ix1 r) = ∑ k : Fin 512, x0 (ix2 r k) := by
  rw [val_main_v0_apply, val_main_cst_apply]
  simp only [i0]
  exact zadd _

theorem mean_read (r : Fin 131072) (u : Fin 1) : val_main_v3 (F := Ideal) x0 (ix2 r u) = mean (fun k => x0 (ix2 r k)) := by
  rw [val_main_v3_apply, val_main_v1_apply, i1, sum0, val_main_v2_apply, val_main_cst_0_apply]
  rfl

theorem cen_read (r : Fin 131072) (k : Fin 512) : val_main_v5 (F := Ideal) x0 (ix2 r k) = centred (fun k => x0 (ix2 r k)) k := by
  rw [val_main_v5_apply, val_main_v4_apply, i4, mean_read]
  rfl

theorem cen13_read (r : Fin 131072) (k : Fin 512) : val_main_v13 (F := Ideal) x0 (ix2 r k) = centred (fun k => x0 (ix2 r k)) k := by
  rw [val_main_v13_apply, val_main_v12_apply, i12, mean_read]
  rfl

theorem spread_read (r : Fin 131072) (u : Fin 1) : val_main_v15 (F := Ideal) x0 (ix2 r u) = spread (fun k => x0 (ix2 r k)) := by
  rw [val_main_v15_apply, val_main_v11_apply, val_main_v10_apply, val_main_v8_apply, i8, val_main_v7_apply, val_main_cst_1_apply,
    val_main_v9_apply, val_main_cst_2_apply, val_main_v14_apply, val_main_cst_3_apply]
  simp only [i7, val_main_v6_apply, cen_read]
  rw [zadd]
  rfl

theorem normed_read (r : Fin 131072) (k : Fin 512) :
    val_main_v23 (F := Ideal) x0 x1 x2 (ix2 r k) = normed (fun k => x0 (ix2 r k)) (fun k => x1 (ix1 k)) (fun k => x2 (ix1 k)) k := by
  rw [val_main_v23_apply, val_main_v20_apply, val_main_v17_apply, cen13_read, val_main_v16_apply, i16, spread_read,
    val_main_v19_apply, i19, val_main_v18_apply, i18, val_main_v22_apply, i22, val_main_v21_apply, i21]
  rfl

theorem sqn_read (r : Fin 131072) (u : Fin 1) :
    val_main_v26 (F := Ideal) x0 x1 x2 (ix2 r u) = sqNorm (fun k => x0 (ix2 r k)) (fun k => x1 (ix1 k)) (fun k => x2 (ix1 k)) := by
  rw [val_main_v26_apply, i26, val_main_v25_apply, val_main_cst_4_apply]
  simp only [i25, val_main_v24_apply, normed_read]
  exact zadd _

theorem c2_read (u : Fin 1) (j : Fin 1024) : val_main_v29 (F := Ideal) x3 (ix2 u j) = centreSq (fun j k => x3 (ix2 j k)) j := by
  rw [val_main_v29_apply, i29, val_main_v28_apply, val_main_cst_5_apply]
  simp only [i28, val_main_v27_apply]
  exact zadd _

/-! ## The distances, the assignment and the reconstruction -/

theorem dist_read (r : Fin 131072) (j : Fin 1024) : val_main_v40 (F := Ideal) x0 x1 x2 x3 (ix2 r j) = distAt x0 x1 x2 x3 r j := by
  rw [val_main_v40_apply, val_main_v39_apply, val_main_v37_apply, val_main_v32_apply, val_main_v30_apply, i30, sqn_read,
    val_main_v31_apply, i31, c2_read, val_main_v36_apply, val_main_v35_apply, val_main_cst_6_apply, val_main_v34_apply,
    val_main_v38_apply, val_main_cst_7_apply]
  simp only [li34, ri34, normed_read, val_main_v33_apply, i33]
  rfl

theorem logit_read (r : Fin 131072) (j : Fin 1024) :
    val_main_v42 (F := Ideal) x0 x1 x2 x3 (ix2 r j)
      = rowLogit (fun k => x0 (ix2 r k)) (fun k => x1 (ix1 k)) (fun k => x2 (ix1 k)) (fun j k => x3 (ix2 j k))
          (centreSq (fun j k => x3 (ix2 j k))) j := by
  rw [val_main_v42_apply, val_main_v41_apply, val_main_cst_8_apply, dist_read]
  rfl

theorem peak_read (r : Fin 131072) (u : Fin 1) :
    val_main_v46 (F := Ideal) x0 x1 x2 x3 (ix2 r u)
      = peak (rowLogit (fun k => x0 (ix2 r k)) (fun k => x1 (ix1 k)) (fun k => x2 (ix1 k)) (fun j k => x3 (ix2 j k))
          (centreSq (fun j k => x3 (ix2 j k)))) := by
  rw [val_main_v46_apply, i46, val_main_v45_apply, val_main_v44_apply, val_main_cst_10_apply]
  unfold val_main_v43
  rw [Cert.Lib.RowMax.hostRowMax_apply _ _ reducesTo_S131072x1024_S131072_d1 (by decide) h_S_ r]
  simp only [logit_read, val_main_cst_9_apply]
  exact max_wNegInf _

theorem exp_read (r : Fin 131072) (j : Fin 1024) :
    val_main_v49 (F := Ideal) x0 x1 x2 x3 (ix2 r j)
      = Ideal.exp (rowLogit (fun k => x0 (ix2 r k)) (fun k => x1 (ix1 k)) (fun k => x2 (ix1 k)) (fun j k => x3 (ix2 j k))
            (centreSq (fun j k => x3 (ix2 j k))) j
          - peak (rowLogit (fun k => x0 (ix2 r k)) (fun k => x1 (ix1 k)) (fun k => x2 (ix1 k)) (fun j k => x3 (ix2 j k))
            (centreSq (fun j k => x3 (ix2 j k))))) := by
  rw [val_main_v49_apply, val_main_v48_apply, logit_read, val_main_v47_apply, i47, peak_read]
  rfl

theorem assign_read (r : Fin 131072) (j : Fin 1024) : val_main_v53 (F := Ideal) x0 x1 x2 x3 (ix2 r j) = assignAt x0 x1 x2 x3 r j := by
  rw [val_main_v53_apply, exp_read, val_main_v52_apply, i52, val_main_v51_apply, i51, val_main_v50_apply, val_main_cst_11_apply]
  simp only [i50, exp_read]
  rw [zadd]
  rfl

theorem recon_read (r : Fin 131072) (d : Fin 512) : val_main_v54 (F := Ideal) x0 x1 x2 x3 (ix2 r d) = reconAt x0 x1 x2 x3 r d := by
  rw [val_main_v54_apply]
  simp only [li54, ri54, assign_read]
  rfl

theorem assign3_read (u : Fin 1) (r : Fin 131072) (j : Fin 1024) :
    val_main_v55 (F := Ideal) x0 x1 x2 x3 (ix3 u r j) = assignAt x0 x1 x2 x3 r j := by
  rw [val_main_v55_apply, i55, assign_read]

/-! ## The three results -/

theorem dist_eq : val_main_v40 (F := Ideal) x0 x1 x2 x3 = distArr x0 x1 x2 x3 := by
  funext i
  obtain ⟨r, j, rfl⟩ : ∃ (r : Fin 131072) (j : Fin 1024), i = ix2 r j := ⟨i 0, i 1, eq_ix2 i⟩
  exact dist_read x0 x1 x2 x3 r j

theorem assign_eq : val_main_v55 (F := Ideal) x0 x1 x2 x3 = assignArr x0 x1 x2 x3 := by
  funext i
  obtain ⟨u, r, j, rfl⟩ : ∃ (u : Fin 1) (r : Fin 131072) (j : Fin 1024), i = ix3 u r j := ⟨i 0, i 1, i 2, eq_ix3 i⟩
  exact assign3_read x0 x1 x2 x3 u r j

theorem recon_eq : val_main_v54 (F := Ideal) x0 x1 x2 x3 = reconArr x0 x1 x2 x3 := by
  funext i
  obtain ⟨r, d, rfl⟩ : ∃ (r : Fin 131072) (d : Fin 512), i = ix2 r d := ⟨i 0, i 1, eq_ix2 i⟩
  exact recon_read x0 x1 x2 x3 r d

end Cert.ReferenceIdeal.Whole

end
-- ==== Proof.lean ====
/- The proof of `Cert.Claim`: a LayerNorm of each of 131072 rows, the rows' Euclidean distances to 1024 centres, the softmax
   of the distances scaled by −32, and the product of those weights with the centres — computed by the kernel in 256
   blocks of 512 rows, with the centres' squared lengths prepared by host operations, and by the reference on the whole
   arrays.  On the extended reals both are the same three functions of the arguments, entry by entry (`Cert.Arrays`, over
   the one-row mathematics of `Cert.Rows`): the kernel's side is `Cert.KernelIdeal.Whole.run` (each grid point writes a
   block of those functions, the blocks tile the results), the reference's side `Cert.ReferenceIdeal.Whole` (its
   operations read one at a time).  The only laws used are that a sum started from zero is the sum and that a maximum
   against −∞ is the other operand; no finiteness of the inputs is needed.  The three frames are the generated runs;
   the idealization rewrote nothing, so `preserves` is trivial. -/
import proofs.«152731_j41540923687208_2_alg».proof.Defs
import proofs.«152731_j41540923687208_2_alg».proof.Proof.Gen.Kernel
import proofs.«152731_j41540923687208_2_alg».proof.Proof.Gen.Kernel.Frame
import proofs.«152731_j41540923687208_2_alg».proof.Proof.Gen.KernelIdeal
import proofs.«152731_j41540923687208_2_alg».proof.Proof.Gen.KernelIdeal.Frame
import proofs.«152731_j41540923687208_2_alg».proof.Proof.Gen.KernelIdeal.Value
import proofs.«152731_j41540923687208_2_alg».proof.Proof.Gen.ReferenceIdeal
import proofs.«152731_j41540923687208_2_alg».proof.Proof.Gen.ReferenceIdeal.Run
import proofs.«152731_j41540923687208_2_alg».proof.Proof.Gen.ReferenceIdeal.Read
import proofs.«152731_j41540923687208_2_alg».proof.Proof.Gen.Pre_finite_inputs
import proofs.«152731_j41540923687208_2_alg».proof.Proof.Whole
import proofs.«152731_j41540923687208_2_alg».proof.Proof.RefWhole
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the distance, assignment and reconstruction arrays of the arguments: the kernel block by
    block, the reference operation by operation, from arguments that agree. -/
theorem algebraic : Cert.algebraic_KernelIdeal_ReferenceIdeal := by
  intro m ρ m' ρ' _ hagree
  refine ⟨fun c => Cert.KernelIdeal.Whole.distOut m c, fun c => Cert.KernelIdeal.Whole.assignOut m c,
    fun c => Cert.KernelIdeal.Whole.reconOut m c, Cert.KernelIdeal.Whole.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3⟩ := hagree c
  refine ⟨h0.trans ?_, h1.trans ?_, h2.trans ?_, hrest⟩
  · rw [Cert.ReferenceIdeal.Read.val_main_v40_eq, Cert.ReferenceIdeal.Whole.dist_eq, a0, a1, a2, a3]
  · rw [Cert.ReferenceIdeal.Read.val_main_v55_eq, Cert.ReferenceIdeal.Whole.assign_eq, a0, a1, a2, a3]
  · rw [Cert.ReferenceIdeal.Read.val_main_v54_eq, Cert.ReferenceIdeal.Whole.recon_eq, a0, a1, a2, a3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
